-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x2x256 : Shape := ⟨3, ![256, 2, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x2x256 : S_.BroadcastsInDim S256x2x256 (![] : Fin 0 → Fin S256x2x256.rank)
  reducesTo_S256x2x256_S_d0_1_2 : S256x2x256.ReducesTo [0, 1, 2] S_

variable [Facts]

def fn {F : FTy → Type} [FloatOps F] (main_arg0 : FVec F S1024x256 .f32) (main_arg1 : FVec F S256x2x256 .f32) (main_arg2 : FVec F S256x2x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x2x256 .f32 := Host.absf main_arg1
  let main_cst_0 : FVec F S_ .f32 := constant S_ .f32 0x7F800000#32
  let main_v5 : FVec F S256x2x256 .f32 := broadcastInDim S256x2x256 ![] bcast_S_S256x2x256 main_cst_0
  let main_v6 : IVec S256x2x256 1 := cmpf .olt main_v4 main_v5
  let main_c_1 : IVec S_ 1 := constantI S_ 1 1#1
  let main_v7 : IVec S_ 1 := (fun x v => Host.reduce IntOp.andi x v reducesTo_S256x2x256_S_d0_1_2 h_S_) main_v6 main_c_1
  let main_v8 : IVec S_ 1 := andi main_v3 main_v7
  let main_v9 : FVec F S256x2x256 .f32 := Host.absf main_arg2
  let main_cst_2 : FVec F S_ .f32 := constant S_ .f32 0x7F800000#32
  let main_v10 : FVec F S256x2x256 .f32 := broadcastInDim S256x2x256 ![] bcast_S_S256x2x256 main_cst_2
  let main_v11 : IVec S256x2x256 1 := cmpf .olt main_v9 main_v10
  let main_c_3 : IVec S_ 1 := constantI S_ 1 1#1
  let main_v12 : IVec S_ 1 := (fun x v => Host.reduce IntOp.andi x v reducesTo_S256x2x256_S_d0_1_2 h_S_) main_v11 main_c_3
  let main_v13 : IVec S_ 1 := andi main_v8 main_v12
  main_v13
-- ==== Kernel.lean ====
abbrev S1024x256 : Shape := ⟨2, ![1024, 256]⟩
abbrev S256x2x256 : Shape := ⟨3, ![256, 2, 256]⟩
abbrev S256x512 : Shape := ⟨2, ![256, 512]⟩
abbrev S256x256 : Shape := ⟨2, ![256, 256]⟩
abbrev S512 : Shape := ⟨1, ![512]⟩
abbrev S1x512 : Shape := ⟨2, ![1, 512]⟩

abbrev nBuf : Space → Nat
  | .hbm => 8
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x2x256, .f32⟩
  | .hbm, ⟨2, _⟩ => ⟨S256x2x256, .f32⟩
  | .hbm, ⟨3, _⟩ => ⟨S256x2x256, .f32⟩
  | .hbm, ⟨4, _⟩ => ⟨S256x512, .f32⟩
  | .hbm, ⟨5, _⟩ => ⟨S256x2x256, .f32⟩
  | .hbm, ⟨6, _⟩ => ⟨S256x512, .f32⟩
  | .hbm, ⟨7, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x2x256_S256x2x256_2_1_0 : S256x2x256.Transposes [2, 1, 0] S256x2x256
  shapeCasts_S256x2x256_S256x512 : S256x2x256.ShapeCasts S256x512
  inb_S256x256_S256x256_0_0 : ∀ a, (![0, 0] : Fin 2 → Nat) a + S256x256.size a ≤ S256x256.size a
  h_S256x256 : 0 < S256x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S256x512_S512 : S256x512.Reduces [0] S512
  shapeCasts_S512_S1x512 : S512.ShapeCasts S1x512
  broadcasts_S1x512_S256x512 : S1x512.Broadcasts S256x512
  slices_S256x512_o0_0_S256x256 : S256x512.Slices ![0, 0] S256x256
  slices_S256x512_o0_256_S256x256 : S256x512.Slices ![0, 256] S256x256
  dot_S256x256_S256x512_S256x512_1_0_0_1_n_n_wf : DotDims.WF S256x256 S256x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x256.size a
  hwx0_0 : ∀ i : grid0.Coords, EltTy.bits .f32 = 32 ∨ (Rect.block (s := S1024x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S1024x256.size a
  hwx0_3 : ∀ i : grid0.Coords, EltTy.bits .f32 = 32 ∨ (Rect.block (s := S1024x256) S256x256.size (cc0_transform_3 i) (hinb0_3 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256 : Shape := ⟨2, ![1024, 256]⟩
abbrev S256x2x256 : Shape := ⟨3, ![256, 2, 256]⟩
abbrev S_ : Shape := ⟨0, ![]⟩
abbrev S1024x1x1x256 : Shape := ⟨4, ![1024, 1, 1, 256]⟩
abbrev S1x256x2x256 : Shape := ⟨4, ![1, 256, 2, 256]⟩
abbrev S1024x256x2x256 : Shape := ⟨4, ![1024, 256, 2, 256]⟩
abbrev S1024x256x2 : Shape := ⟨3, ![1024, 256, 2]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x2x256, .f32⟩
  | .hbm, ⟨2, _⟩ => ⟨S256x2x256, .f32⟩
  | .hbm, ⟨3, _⟩ => ⟨S256x2x256, .f32⟩
  | .hbm, ⟨4, _⟩ => ⟨S256x2x256, .f32⟩
  | .hbm, ⟨5, _⟩ => ⟨S_, .f32⟩
  | .hbm, ⟨6, _⟩ => ⟨S256x2x256, .f32⟩
  | .hbm, ⟨7, _⟩ => ⟨S256x2x256, .f32⟩
  | .hbm, ⟨8, _⟩ => ⟨S256x2x256, .f32⟩
  | .hbm, ⟨9, _⟩ => ⟨S_, .f32⟩
  | .hbm, ⟨10, _⟩ => ⟨S256x2x256, .f32⟩
  | .hbm, ⟨11, _⟩ => ⟨S256x2x256, .f32⟩
  | .hbm, ⟨12, _⟩ => ⟨S1024x1x1x256, .f32⟩
  | .hbm, ⟨13, _⟩ => ⟨S1x256x2x256, .f32⟩
  | .hbm, ⟨14, _⟩ => ⟨S1024x256x2x256, .f32⟩
  | .hbm, ⟨15, _⟩ => ⟨S1024x256x2x256, .f32⟩
  | .hbm, ⟨16, _⟩ => ⟨S1024x256x2x256, .f32⟩
  | .hbm, ⟨17, _⟩ => ⟨S1024x256x2x256, .f32⟩
  | .hbm, ⟨18, _⟩ => ⟨S1x256x2x256, .f32⟩
  | .hbm, ⟨19, _⟩ => ⟨S1024x256x2x256, .f32⟩
  | .hbm, ⟨20, _⟩ => ⟨S1024x256x2x256, .f32⟩
  | .hbm, ⟨21, _⟩ => ⟨S_, .f32⟩
  | .hbm, ⟨22, _⟩ => ⟨S1024x256x2, .f32⟩
  | .hbm, ⟨23, _⟩ => ⟨S1024x256x2, .f32⟩
  | .hbm, ⟨24, _⟩ => ⟨S1024x256x2, .f32⟩
  | .hbm, ⟨25, _⟩ => ⟨S_, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S256x2x256 : S_.BroadcastsInDim S256x2x256 (![] : Fin 0 → Fin S256x2x256.rank)
  bcast_S1024x256_S1024x1x1x256_0_3 : S1024x256.BroadcastsInDim S1024x1x1x256 (![0, 3] : Fin 2 → Fin S1024x1x1x256.rank)
  bcast_S256x2x256_S1x256x2x256_1_2_3 : S256x2x256.BroadcastsInDim S1x256x2x256 (![1, 2, 3] : Fin 3 → Fin S1x256x2x256.rank)
  bcast_S1024x1x1x256_S1024x256x2x256_0_1_2_3 : S1024x1x1x256.BroadcastsInDim S1024x256x2x256 (![0, 1, 2, 3] : Fin 4 → Fin S1024x256x2x256.rank)
  bcast_S1x256x2x256_S1024x256x2x256_0_1_2_3 : S1x256x2x256.BroadcastsInDim S1024x256x2x256 (![0, 1, 2, 3] : Fin 4 → Fin S1024x256x2x256.rank)
  reducesTo_S1024x256x2x256_S1024x256x2_d3 : S1024x256x2x256.ReducesTo [3] S1024x256x2
  h_S_ : 0 < S_.numel
  reducesTo_S1024x256x2_S1024x256_d2 : S1024x256x2.ReducesTo [2] S1024x256
  bcast_S_S1024x256 : S_.BroadcastsInDim S1024x256 (![] : Fin 0 → Fin S1024x256.rank)

variable [Facts₀]

class Facts : Prop extends Facts₀ where

variable [Facts]
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibColReduce.lean ====
/-
  Reductions of an n x k array along its columns, read at a column given by its coordinate. The reduced index (c) with
  the outer coordinate s put back is the array index (s, c); so a sum over the first axis at c is the finite sum over s
  of the entries (s, c), for the vector unit's reduction and for the host's (after its initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Column c's reduced index with the outer coordinate s inserted is (s, c). -/
theorem lift_col {n k : ℕ} (h : (⟨2, ![n, k]⟩ : Shape).Reduces [0] (⟨1, ![k]⟩ : Shape)) (c : Fin k)
    (s : Fin ((⟨2, ![n, k]⟩ : Shape).size 0)) : h.lift (ix1 c) s = ix2 (⟨s.val, s.isLt⟩ : Fin n) c := by
  funext a; apply Fin.ext
  fin_cases a <;> rfl

/-- A vector-unit sum over the first axis, at column c: the sum of the column's entries. -/
theorem multiReduction_add_col {n k : ℕ} {φ : FTy} (src : FVec Ideal (⟨2, ![n, k]⟩ : Shape) φ) (acc : BitVec φ.bits)
    (h : (⟨2, ![n, k]⟩ : Shape).Reduces [0] (⟨1, ![k]⟩ : Shape)) (hφ : FKind.Formats φ) (hacc : acc = FKind.add.neutral φ hφ) (c : Fin k) :
    multiReduction .add [0] (⟨1, ![k]⟩ : Shape) src acc h hφ hacc (ix1 c) = ∑ s : Fin n, (src (ix2 s c) : EReal) :=
  (Ideal.multiReduction_add_single src acc h hφ hacc (ix1 c)).trans
    (Finset.sum_congr rfl fun s _ => congrArg src (lift_col h c s))

/-- The host's sum over the first axis, at column c: the initial value plus the sum of the column's entries. -/
theorem hostReduceAdd_col {n k : ℕ} (h' : (⟨2, ![n, k]⟩ : Shape).ReducesTo [0] (⟨1, ![k]⟩ : Shape))
    (h : (⟨2, ![n, k]⟩ : Shape).Reduces [0] (⟨1, ![k]⟩ : Shape)) (x : (⟨2, ![n, k]⟩ : Shape).Idx → EReal) (init : EReal) (c : Fin k) :
    Ideal.hostReduceAdd h' x init (ix1 c) = init + ∑ s : Fin n, x (ix2 s c) :=
  (Ideal.hostReduceAdd_single h' h x init (ix1 c)).trans
    (congrArg (init + ·) (Finset.sum_congr rfl fun s _ => congrArg x (lift_col h c s)))

end Idealize.ShloMosaic.ValueIdx

end
-- ==== Proof.LibRealEntries.lean ====
/-
  Extended reals that are real numbers, and the one law that joins the two programs' batch normalisations.

  An extended real is called real when it is the image of a real number. Sums, differences, products, maxima and
  quotients by a nonzero real of real entries are real, and so is the reciprocal square root of a positive real.

  The law: for n real numbers a_i and N = n (as a real, nonzero),
      (sum of a_i^2) / N - (sum a_i / N)^2  =  (sum of (a_i - sum a / N)^2) / N,
  the mean of the squares minus the square of the mean is the mean of the squared deviations. It holds for real
  entries only (an infinite entry makes the two sides different infinities), which is why finiteness is carried
  through every layer. The right-hand side is a nonnegative real, so adding a positive epsilon and taking the
  reciprocal square root gives a real number.
-/
import Idealize.ShloMosaic.PureOps.Ideal

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_real {x : EReal} (hx : IsReal x) {y : ℝ} (hy : y ≠ 0) : IsReal (Ideal.div x (y : EReal)) := by
  rw [Ideal.div_coe hy]; exact hx.mul ⟨_, rfl⟩

/-- The reciprocal square root of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- The mean of the squares minus the square of the mean is the mean of the squared deviations, for real entries. -/
theorem var_eq {n : ℕ} (a : Fin n → EReal) (ha : ∀ i, IsReal (a i)) (N : ℝ) (hN : N ≠ 0) (hn : (n : ℝ) = N) :
    Ideal.div (∑ i, a i * a i) (N : EReal) - Ideal.div (∑ i, a i) (N : EReal) * Ideal.div (∑ i, a i) (N : EReal)
      = Ideal.div (∑ i, (a i - Ideal.div (∑ j, a j) (N : EReal)) * (a i - Ideal.div (∑ j, a j) (N : EReal))) (N : EReal) := by
  choose f hf using ha
  have hfun : a = fun i => (f i : EReal) := funext hf
  subst hfun
  simp only [Ideal.div_coe hN, ← EReal.coe_mul, ← coe_sum, ← EReal.coe_sub]
  refine congrArg _ ?_
  have h1 : ∑ i, (f i - (∑ j, f j) * (1 / N)) * (f i - (∑ j, f j) * (1 / N))
      = ∑ i, f i * f i - 2 * ((∑ j, f j) * (1 / N)) * ∑ i, f i + (n : ℝ) * (((∑ j, f j) * (1 / N)) * ((∑ j, f j) * (1 / N))) := by
    have : ∀ i, (f i - (∑ j, f j) * (1 / N)) * (f i - (∑ j, f j) * (1 / N))
        = f i * f i - 2 * ((∑ j, f j) * (1 / N)) * f i + ((∑ j, f j) * (1 / N)) * ((∑ j, f j) * (1 / N)) := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The mean of the squared deviations of real entries, plus a positive real, has a real reciprocal square root. -/
theorem isReal_rsqrt_var {n : ℕ} (a : Fin n → EReal) (ha : ∀ i, IsReal (a i)) (μ : EReal) (hμ : IsReal μ) (N : ℝ) (hN : 0 < N)
    (e : ℝ) (he : 0 < e) : IsReal (Ideal.rsqrt (Ideal.div (∑ i, (a i - μ) * (a i - μ)) (N : EReal) + (e : EReal))) := by
  choose f hf using ha
  obtain ⟨u, rfl⟩ := hμ
  have hfun : a = fun i => (f i : EReal) := funext hf
  subst hfun
  simp only [Ideal.div_coe hN.ne', ← EReal.coe_mul, ← coe_sum, ← EReal.coe_sub, ← EReal.coe_add]
  refine isReal_rsqrt_pos ?_
  have : 0 ≤ (∑ i, (f i - u) * (f i - u)) * (1 / N) :=
    mul_nonneg (Finset.sum_nonneg fun i _ => mul_self_nonneg _) (by positivity)
  linarith

end Cert.Algebra

end
-- ==== Proof.Consts.lean ====
/-
  The float constants the two programs spell, as the extended reals their patterns denote: 2.0 is the real 2,
  1.0 the real 1, and the pattern of minus infinity is the bottom element.
-/
import Idealize.ShloMosaic.PureOps.Ideal

noncomputable section

namespace Cert.Density.Consts

open Idealize.ShloMosaic

/-- The pattern of 2.0 denotes the real number 2. -/
theorem ofBits_two : Ideal.ofBits .f32 0x40000000#32 = ((2 : ℝ) : EReal) := by
  simp [Ideal.ofBits, Ideal.ieee, -EReal.coe_mul]; norm_num

/-- The pattern of 1.0 denotes the real number 1. -/
theorem ofBits_one : Ideal.ofBits .f32 0x3F800000#32 = ((1 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

end Cert.Density.Consts

end
-- ==== Proof.Spec.lean ====
/-
  The density estimator as one function of the three argument arrays, and the law that joins its two spellings.

  For a batch row b, an output o and a distribution d, with x = X(b, ·), m = M(o, d, ·) and the weights
  w_f = 1 / (2 σ_f σ_f), σ_f = log(1 + exp R(o, d, f)), the exponent is the weighted squared distance
      est = Σ_f (x_f - m_f) (x_f - m_f) w_f.
  One program computes it as written; the other expands the square and sums the three parts apart,
      (Σ_f x_f x_f w_f  -  2 Σ_f x_f (m_f w_f))  +  Σ_f m_f (m_f w_f).
  The two agree when every entry is a real number: the weights are then positive reals (the exponential of a real is
  positive, so 1 + exp is above 1 and its logarithm is positive), and the identity is the binomial expansion under a
  finite sum. With an infinite entry the expanded form would subtract infinities, so finiteness is used here and only here.
  The result at (b, o) is s / (s + 2 - 2 max(p0, p1)) with p_d = exp(-est_d) and s = p0 + p1.
-/
import Idealize.ShloMosaic.PureOps.Ideal
import Idealize.ShloMosaic.PureOps.Ideal.Laws
import Idealize.ShloMosaic.Lib.ValueIdx
import proofs.«149137_j850403524972_2_alg».proof.Proof.LibRealEntries
import proofs.«149137_j850403524972_2_alg».proof.Proof.Consts

noncomputable section

open scoped BigOperators

namespace Cert.Density

open Idealize.ShloMosaic Idealize.ShloMosaic.ValueIdx Cert.Algebra

/-- The constant 2.0 as both programs spell it. -/
def two : EReal := Ideal.ofBits .f32 0x40000000#32
/-- The constant 1.0 as both programs spell it. -/
def one : EReal := Ideal.ofBits .f32 0x3F800000#32

/-- The weight 1 / (2 σ σ) of a parameter ρ, σ = log(1 + exp ρ). -/
def wt (ρ : EReal) : EReal :=
  Ideal.div one ((two * Ideal.log1p (Ideal.exp ρ)) * Ideal.log1p (Ideal.exp ρ))

/-- The exponent as the weighted squared distance. -/
def estR (X : (⟨2, ![1024, 256]⟩ : Shape).Idx → EReal) (M R : (⟨3, ![256, 2, 256]⟩ : Shape).Idx → EReal)
    (b : Fin 1024) (o : Fin 256) (d : Fin 2) : EReal :=
  ∑ f : Fin 256, ((X (ix2 b f) - M (ix3 o d f)) * (X (ix2 b f) - M (ix3 o d f))) * wt (R (ix3 o d f))

/-- The exponent with the square expanded and the three parts summed apart. -/
def estK (X : (⟨2, ![1024, 256]⟩ : Shape).Idx → EReal) (M R : (⟨3, ![256, 2, 256]⟩ : Shape).Idx → EReal)
    (b : Fin 1024) (o : Fin 256) (d : Fin 2) : EReal :=
  ((∑ f : Fin 256, (X (ix2 b f) * X (ix2 b f)) * wt (R (ix3 o d f)))
      - two * ∑ f : Fin 256, X (ix2 b f) * (M (ix3 o d f) * wt (R (ix3 o d f))))
    + ∑ f : Fin 256, M (ix3 o d f) * (M (ix3 o d f) * wt (R (ix3 o d f)))

/-- The aggregation of the two distributions' probabilities: s / (s + 2 - 2 max), s their sum. -/
def ratio (p0 p1 : EReal) : EReal := Ideal.div (p0 + p1) (((p0 + p1) + two) - two * max p0 p1)

/-- The whole result array from the exponents. -/
def G (est : Fin 1024 → Fin 256 → Fin 2 → EReal) : (⟨2, ![1024, 256]⟩ : Shape).Idx → EReal :=
  fun i => ratio (Ideal.exp (-(est (i 0) (i 1) 0))) (Ideal.exp (-(est (i 0) (i 1) 1)))

/-- The binomial expansion under a finite sum, for real entries. -/
theorem quad_sum {n : ℕ} (x m w : Fin n → EReal) (hx : ∀ k, IsReal (x k)) (hm : ∀ k, IsReal (m k))
    (hw : ∀ k, IsReal (w k)) :
    ((∑ k, (x k * x k) * w k) - ((2 : ℝ) : EReal) * ∑ k, x k * (m k * w k)) + ∑ k, m k * (m k * w k)
      = ∑ k, ((x k - m k) * (x k - m k)) * w k := by
  choose a ha using hx
  choose b hb using hm
  choose u hu using hw
  obtain rfl : x = fun k => (a k : EReal) := funext ha
  obtain rfl : m = fun k => (b k : EReal) := funext hb
  obtain rfl : w = fun k => (u k : EReal) := funext hu
  simp only [← EReal.coe_mul, ← EReal.coe_sub, ← coe_sum, ← EReal.coe_add]
  refine congrArg _ ?_
  have h : ∀ k, (a k - b k) * (a k - b k) * u k = a k * a k * u k - 2 * (a k * (b k * u k)) + b k * (b k * u k) :=
    fun k => by ring
  simp only [h, Finset.sum_add_distrib, Finset.sum_sub_distrib, ← Finset.mul_sum]

/-- The weight of a real parameter is a real number. -/
theorem wt_real {ρ : EReal} (h : IsReal ρ) : IsReal (wt ρ) := by
  obtain ⟨r, rfl⟩ := h
  have hpos : 0 < 1 + Real.exp r := by positivity
  have hσ : 0 < Real.log (1 + Real.exp r) := Real.log_pos (by linarith [Real.exp_pos r])
  have e1 : Ideal.log1p (Ideal.exp (r : EReal)) = ((Real.log (1 + Real.exp r) : ℝ) : EReal) := by
    rw [Ideal.exp_coe, Ideal.log1p, ← EReal.coe_one, ← EReal.coe_add, Ideal.log_coe, if_neg (not_le.mpr hpos)]
  unfold wt
  rw [e1, two, one, Consts.ofBits_two, Consts.ofBits_one, ← EReal.coe_mul, ← EReal.coe_mul,
    Ideal.div_coe (by positivity)]
  exact ⟨_, (EReal.coe_mul _ _).symm⟩

/-- THE LAW: on real entries the expanded exponent is the weighted squared distance. -/
theorem estK_eq_estR (X : (⟨2, ![1024, 256]⟩ : Shape).Idx → EReal) (M R : (⟨3, ![256, 2, 256]⟩ : Shape).Idx → EReal)
    (hX : ∀ i, IsReal (X i)) (hM : ∀ i, IsReal (M i)) (hR : ∀ i, IsReal (R i)) (b : Fin 1024) (o : Fin 256) (d : Fin 2) :
    estK X M R b o d = estR X M R b o d := by
  unfold estK estR
  rw [two, Consts.ofBits_two]
  exact quad_sum _ _ _ (fun _ => hX _) (fun _ => hM _) (fun _ => wt_real (hR _))

/-- So on real entries the two spellings give one result array. -/
theorem G_estK_eq (X : (⟨2, ![1024, 256]⟩ : Shape).Idx → EReal) (M R : (⟨3, ![256, 2, 256]⟩ : Shape).Idx → EReal)
    (hX : ∀ i, IsReal (X i)) (hM : ∀ i, IsReal (M i)) (hR : ∀ i, IsReal (R i)) :
    G (estK X M R) = G (estR X M R) :=
  congrArg G (funext fun b => funext fun o => funext fun d => estK_eq_estR X M R hX hM hR b o d)

/-- The result array at row b and column o. -/
theorem G_ix2 (est : Fin 1024 → Fin 256 → Fin 2 → EReal) (b : Fin 1024) (o : Fin 256) :
    G est (ix2 b o) = ratio (Ideal.exp (-(est b o 0))) (Ideal.exp (-(est b o 1))) := rfl

end Cert.Density

end
-- ==== Proof.KernelBody.lean ====
/-
  What the kernel body computes from its three loaded blocks, entry by entry.

  The body gets a [256, 256] block A of x and the two [256, 512] parameter tables Mt and Rt (feature k down the rows,
  column d * 256 + o for distribution d and output o). It forms the weights w(k, c) = 1 / (2 σ σ), σ = log(1 + exp Rt(k, c)),
  then three sums over the feature axis: two as matrix products, A∘A times w and A times Mt∘w, and one as a column sum
  of Mt∘Mt∘w. At row r and column c they combine to the expanded exponent
      (Σ_k A(r,k) A(r,k) w(k,c) - 2 Σ_k A(r,k) (Mt(k,c) w(k,c))) + Σ_k Mt(k,c) (Mt(k,c) w(k,c)).
  The probabilities exp(0 - exponent) are cut into the left and right halves of the 512 columns, one half per
  distribution, and entry (r, o) of the stored block is the ratio s / (s + 2 - 2 max) of the two halves at (r, o).
-/
import proofs.«149137_j850403524972_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«149137_j850403524972_2_alg».proof.Proof.LibDotIx2
import proofs.«149137_j850403524972_2_alg».proof.Proof.LibColReduce
import proofs.«149137_j850403524972_2_alg».proof.Proof.Spec

noncomputable section

open scoped BigOperators

namespace Cert.Density.Body

open Cert.KernelIdeal Cert.KernelIdeal.Gen Idealize.ShloMosaic Idealize.ShloMosaic.ValueIdx Cert.Density

/-- Column d * 256 + o of the 512: distribution d, output o. -/
def col (d : Fin 2) (o : Fin 256) : Fin 512 := ⟨d.val * 256 + o.val, by have := d.isLt; have := o.isLt; omega⟩

/-- The expanded exponent over one block: row r of the x block, column c of the parameter tables. -/
def estBlk (A : (⟨2, ![256, 256]⟩ : Shape).Idx → EReal) (Mt Rt : (⟨2, ![256, 512]⟩ : Shape).Idx → EReal)
    (r : Fin 256) (c : Fin 512) : EReal :=
  ((∑ k : Fin 256, (A (ix2 r k) * A (ix2 r k)) * wt (Rt (ix2 k c)))
      - two * ∑ k : Fin 256, A (ix2 r k) * (Mt (ix2 k c) * wt (Rt (ix2 k c))))
    + ∑ k : Fin 256, Mt (ix2 k c) * (Mt (ix2 k c) * wt (Rt (ix2 k c)))

/-- The body's products contract the left operand's columns with the right operand's rows. -/
theorem plainDot : PlainDot (M := 256) (K := 256) (N := 512) dot_S256x256_S256x512_S256x512_1_0_0_1_n_n where
  rank := rfl
  size := rfl
  l0 := fun j q => by simp [DotDims.lhsIdx, dot_S256x256_S256x512_S256x512_1_0_0_1_n_n]; rfl
  l1 := fun j q => DotDims.lhsIdx_val_of_single _ rfl j q
  r0 := fun j q => DotDims.rhsIdx_val_of_single _ rfl j q
  r1 := fun j q => by simp [DotDims.rhsIdx, dot_S256x256_S256x512_S256x512_1_0_0_1_n_n]; rfl

/-- The array of weights. -/
def wtVec (x2 : FVec Ideal S256x512 .f32) : FVec Ideal S256x512 .f32 :=
  divf (broadcast S256x512 (Scalar.ofBits .f32 0x3F800000#32))
    (mulf (mulf (broadcast S256x512 (Scalar.ofBits .f32 0x40000000#32))
        (log1p (exp (shapeCast S256x512 x2 shapeCasts_S256x512_S256x512))))
      (log1p (exp (shapeCast S256x512 x2 shapeCasts_S256x512_S256x512))))

theorem wtVec_apply (x2 : FVec Ideal S256x512 .f32) (k : Fin 256) (c : Fin 512) :
    wtVec x2 (ix2 k c) = wt (x2 (ix2 k c)) := by
  unfold wtVec
  rw [shapeCast_self]
  rfl

/-- A product into zeros at (r, c): the sum over the 256 inner positions. -/
theorem mm_apply (L : FVec Ideal S256x256 .f32) (Rg : FVec Ideal S256x512 .f32) (r : Fin 256) (c : Fin 512) :
    matmul dot_S256x256_S256x512_S256x512_1_0_0_1_n_n (some .fp32) L Rg (constant S256x512 .f32 0x00000000#32) (ix2 r c)
      = ∑ k : Fin 256, L (ix2 r k) * Rg (ix2 k c) :=
  matmul_zero_ix2_any plainDot (some .fp32) L Rg r c

/-- The column sums, as one row, copied down the rows, at (r, c): the sum of column c. -/
theorem colsum_apply (Y : FVec Ideal S256x512 .f32) (r : Fin 256) (c : Fin 512) :
    broadcastTo S256x512 (shapeCast S1x512 (multiReduction .add [0] S512 Y 0x00000000#32 reduces_S256x512_S512 (.inl rfl) rfl)
        shapeCasts_S512_S1x512) broadcasts_S1x512_S256x512 (ix2 r c)
      = ∑ s : Fin 256, Y (ix2 s c) :=
  (broadcastTo_1b_ab_apply _ broadcasts_S1x512_S256x512 r c).trans
    ((shapeCast_a_1a_apply _ shapeCasts_S512_S1x512 0 c).trans
      (multiReduction_add_col Y 0x00000000#32 reduces_S256x512_S512 (.inl rfl) rfl c))

/-- The array of exponents. -/
def estVec (x0 : FVec Ideal S256x256 .f32) (x1 x2 : FVec Ideal S256x512 .f32) : FVec Ideal S256x512 .f32 :=
  addf
    (subf
      (matmul dot_S256x256_S256x512_S256x512_1_0_0_1_n_n (some .fp32) (mulf x0 x0) (wtVec x2) (constant S256x512 .f32 0x00000000#32))
      (mulf (broadcast S256x512 (Scalar.ofBits .f32 0x40000000#32))
        (matmul dot_S256x256_S256x512_S256x512_1_0_0_1_n_n (some .fp32) x0
          (mulf (shapeCast S256x512 x1 shapeCasts_S256x512_S256x512) (wtVec x2)) (constant S256x512 .f32 0x00000000#32))))
    (broadcastTo S256x512 (shapeCast S1x512 (multiReduction .add [0] S512
        (mulf (shapeCast S256x512 x1 shapeCasts_S256x512_S256x512) (mulf (shapeCast S256x512 x1 shapeCasts_S256x512_S256x512) (wtVec x2)))
        0x00000000#32 reduces_S256x512_S512 (.inl rfl) rfl)
      shapeCasts_S512_S1x512) broadcasts_S1x512_S256x512)

theorem estVec_apply (x0 : FVec Ideal S256x256 .f32) (x1 x2 : FVec Ideal S256x512 .f32) (r : Fin 256) (c : Fin 512) :
    estVec x0 x1 x2 (ix2 r c) = estBlk x0 x1 x2 r c := by
  unfold estVec estBlk
  rw [shapeCast_self x1]
  rw [addf_apply, subf_apply, mulf_apply, broadcast_apply, mm_apply, mm_apply, colsum_apply]
  simp only [mulf_apply, wtVec_apply]
  rfl

/-- The probabilities exp(0 - exponent). -/
def probs (e : FVec Ideal S256x512 .f32) : FVec Ideal S256x512 .f32 :=
  exp (subf (broadcast S256x512 (Scalar.ofBits .f32 0x00000000#32)) e)

theorem probs_apply (e : FVec Ideal S256x512 .f32) (r : Fin 256) (c : Fin 512) :
    probs e (ix2 r c) = Ideal.exp (-(e (ix2 r c))) := by
  show Ideal.exp (Ideal.ofBits .f32 0x00000000#32 - e (ix2 r c)) = _
  rw [Ideal.ofBits_zero_f32, zero_sub]

/-- The left half of the columns: distribution 0. -/
def half0 (e : FVec Ideal S256x512 .f32) : FVec Ideal S256x256 .f32 :=
  extractStridedSlice S256x256 ![0, 0] (probs e) slices_S256x512_o0_0_S256x256
/-- The right half of the columns: distribution 1. -/
def half1 (e : FVec Ideal S256x512 .f32) : FVec Ideal S256x256 .f32 :=
  extractStridedSlice S256x256 ![0, 256] (probs e) slices_S256x512_o0_256_S256x256

theorem half0_apply (e : FVec Ideal S256x512 .f32) (r o : Fin 256) :
    half0 e (ix2 r o) = Ideal.exp (-(e (ix2 r (col 0 o)))) :=
  (slice2_axis1_apply 0 (probs e) slices_S256x512_o0_0_S256x256 r o (col 0 o) (by simp [col])).trans (probs_apply e r _)

theorem half1_apply (e : FVec Ideal S256x512 .f32) (r o : Fin 256) :
    half1 e (ix2 r o) = Ideal.exp (-(e (ix2 r (col 1 o)))) :=
  (slice2_axis1_apply 256 (probs e) slices_S256x512_o0_256_S256x256 r o (col 1 o) (by simp [col])).trans (probs_apply e r _)

/-- The aggregation of the two halves. -/
def finish (e : FVec Ideal S256x512 .f32) : FVec Ideal S256x256 .f32 :=
  divf (addf (half0 e) (half1 e))
    (subf (addf (addf (half0 e) (half1 e)) (broadcast S256x256 (Scalar.ofBits .f32 0x40000000#32)))
      (mulf (broadcast S256x256 (Scalar.ofBits .f32 0x40000000#32)) (maximumf (half0 e) (half1 e))))

theorem finish_apply (e : FVec Ideal S256x512 .f32) (r o : Fin 256) :
    finish e (ix2 r o) = ratio (Ideal.exp (-(e (ix2 r (col 0 o))))) (Ideal.exp (-(e (ix2 r (col 1 o))))) := by
  unfold finish ratio
  simp only [divf_apply, subf_apply, addf_apply, mulf_apply, maximumf_apply, broadcast_apply, half0_apply, half1_apply]
  rfl

/-- The body's stored value is the aggregation of the exponents' array. -/
theorem pay_eq (x0 : Vec Ideal S256x256 .f32) (x1 x2 : Vec Ideal S256x512 .f32) :
    k0_pay1 (F := Ideal) x0 x1 x2 = finish (estVec x0 x1 x2) := rfl

/-- THE BODY AT AN ENTRY: the ratio of the two distributions' probabilities from the expanded exponents. -/
theorem pay_apply (x0 : Vec Ideal S256x256 .f32) (x1 x2 : Vec Ideal S256x512 .f32) (r o : Fin 256) :
    k0_pay1 (F := Ideal) x0 x1 x2 (ix2 r o)
      = ratio (Ideal.exp (-(estBlk x0 x1 x2 r (col 0 o)))) (Ideal.exp (-(estBlk x0 x1 x2 r (col 1 o)))) := by
  rw [pay_eq, finish_apply, estVec_apply, estVec_apply]

end Cert.Density.Body

end
-- ==== Proof.KernelValue.lean ====
/-
  The kernel's output array is the density estimator in its expanded form.

  Before the launch the two parameter arrays [256, 2, 256] (output, distribution, feature) are transposed to
  (feature, distribution, output) and flattened to [256, 512]: entry (k, d * 256 + o) of a table is the parameter at
  (o, d, k). The launch has four grid points; point t reads rows 256 t ... 256 t + 255 of x and the two whole tables,
  and writes rows 256 t ... 256 t + 255 of the output. So what point t writes is block t of one whole-array function,
  the estimator with the exponent in expanded form, and the four blocks cover the output.
-/
import proofs.«149137_j850403524972_2_alg».proof.Proof.Gen.KernelIdeal.Value
import Idealize.ShloMosaic.Lib.StableHlo.Run
import proofs.«149137_j850403524972_2_alg».proof.Proof.KernelBody

noncomputable section

open scoped BigOperators

namespace Cert.Density.KernelValue

open Cert.KernelIdeal Cert.KernelIdeal.Gen Idealize.ShloMosaic Idealize.ShloMosaic.TcCoe Idealize.SL.Sem
  Idealize.ShloMosaic.ValueIdx Cert.Density Cert.Density.Body
open Idealize.ShloMosaic.Pipeline (Dat)

variable (m : (ℓ : Loc nD τ sig) → Buf (Elt Ideal) ℓ) (ρ : Dev nD → PrngReg)

/-! ## The flattened transposed tables read at an index -/

/-- A parameter array transposed to (feature, distribution, output) and flattened, at row k and column d * 256 + o:
    the parameter at (o, d, k). -/
theorem table_apply (Pm : S256x2x256.Idx → EReal) (k : Fin 256) (d : Fin 2) (o : Fin 256) :
    shapeCast S256x512 (transpose S256x2x256 [2, 1, 0] Pm transposes_S256x2x256_S256x2x256_2_1_0)
        shapeCasts_S256x2x256_S256x512 (ix2 k (col d o))
      = Pm (ix3 o d k) := by
  refine (shapeCast_apply _ shapeCasts_S256x2x256_S256x512 (ix2 k (col d o)) (ix3 k d o) ?_).trans ?_
  · rw [Shape.rowMajor_val_two, Shape.rowMajor_val_three]
    show (k.val * 2 + d.val) * 256 + o.val = k.val * 512 + (d.val * 256 + o.val)
    omega
  · exact transpose_apply _ Pm transposes_S256x2x256_S256x2x256_2_1_0 (ix3 k d o) (ix3 o d k)
      (fun b => match b with | ⟨0, _⟩ => rfl | ⟨1, _⟩ => rfl | ⟨2, _⟩ => rfl)

/-- The table of centres as the launch finds it. -/
theorem V_means (c : Dev nD) :
    (V m c main_v1 : S256x512.Idx → EReal)
      = shapeCast S256x512 (transpose S256x2x256 [2, 1, 0] (m ((c : Thread nD τ).loc main_arg1))
          transposes_S256x2x256_S256x2x256_2_1_0) shapeCasts_S256x2x256_S256x512 := by
  dsimp only [Gen.V, Gen.hostOps0]; after_results; rfl

/-- The table of scale parameters as the launch finds it. -/
theorem V_rhos (c : Dev nD) :
    (V m c main_v3 : S256x512.Idx → EReal)
      = shapeCast S256x512 (transpose S256x2x256 [2, 1, 0] (m ((c : Thread nD τ).loc main_arg2))
          transposes_S256x2x256_S256x2x256_2_1_0) shapeCasts_S256x2x256_S256x512 := by
  dsimp only [Gen.V, Gen.hostOps0]; after_results; rfl

/-! ## One block of the body is one block of the whole-array function -/

/-- If a block A holds rows q * 256 ... of X and the two tables hold the parameters as flattened above, the body's
    stored entry (r, o) is the estimator at (q * 256 + r, o). -/
theorem block_value (X : (⟨2, ![1024, 256]⟩ : Shape).Idx → EReal) (Mp Rp : (⟨3, ![256, 2, 256]⟩ : Shape).Idx → EReal)
    (A : Vec Ideal S256x256 .f32) (Mt Rt : Vec Ideal S256x512 .f32) (row : Fin 256 → Fin 1024)
    (hA : ∀ r k : Fin 256, A (ix2 r k) = X (ix2 (row r) k))
    (hM : ∀ (k : Fin 256) (d : Fin 2) (o : Fin 256), Mt (ix2 k (col d o)) = Mp (ix3 o d k))
    (hR : ∀ (k : Fin 256) (d : Fin 2) (o : Fin 256), Rt (ix2 k (col d o)) = Rp (ix3 o d k))
    (r o : Fin 256) :
    k0_pay1 (F := Ideal) A Mt Rt (ix2 r o) = G (estK X Mp Rp) (ix2 (row r) o) := by
  have he : ∀ d : Fin 2, estBlk A Mt Rt r (col d o) = estK X Mp Rp (row r) o d := fun d => by
    unfold estBlk estK
    simp only [hA, hM, hR]
  rw [pay_apply, G_ix2, he 0, he 1]

/-! ## The index maps, decided over the four grid points -/

theorem hz : (![0, 0] : Fin 2 → Nat) = fun _ => 0 := funext fun a => by fin_cases a <;> rfl

/-- The x window moves with the output window down the rows; the two tables stay; the output's row-block index is
    below four and its column-block index zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 3 ∧ win0_3.index t (1 : Fin 2) = 0 :=
  (by decide +kernel : ∀ t : Fin grid0.N, _)

/-- Every row block is some point's. -/
theorem idx_onto : ∀ q : Fin 4, ∃ t : Fin cfg0.N, win0_3.index t = ![q.val, 0] :=
  (by decide +kernel : ∀ q : Fin 4, ∃ t : Fin grid0.N, win0_3.index t = ![q.val, 0])

/-! ## What a point writes back -/

/-- WHAT POINT t WRITES BACK is block t of the estimator, expanded form, of the three arguments. -/
theorem flushed_eq (c : Dev nD) (t : Fin cfg0.N) :
    (dats m 0 c).flushed 3 t = ((cfg0.win 3).blk t).view.read (Elt Ideal)
      (G (estK (m ((c : Thread nD τ).loc main_arg0)) (m ((c : Thread nD τ).loc main_arg1)) (m ((c : Thread nD τ).loc main_arg2)))) := by
  rw [Value.flushed3]
  unfold out0_3
  rw [View.canon_unit_zero hz]
  simp only [View.ld_unit_zero (S := S256x256) hz, View.ld_unit_zero (S := S256x512) hz]
  obtain ⟨e0, e1, e2, e3, e4, e5, e6, e7⟩ := idx_facts t
  funext y
  obtain ⟨r, o, rfl⟩ : ∃ (r o : Fin 256), y = ix2 r o := ⟨y 0, y 1, eq_ix2 y⟩
  have hrow : ∀ r : Fin 256, win0_3.index t (0 : Fin 2) * 256 + r.val < 1024 := fun r => by have := r.isLt; omega
  show k0_pay1 (F := Ideal) (iblk m c 0 t) (iblk m c 1 t) (iblk m c 2 t) (ix2 r o)
    = G (estK (m ((c : Thread nD τ).loc main_arg0)) (m ((c : Thread nD τ).loc main_arg1)) (m ((c : Thread nD τ).loc main_arg2)))
        (((cfg0.win 3).blk t).view.emb (ix2 r o))
  refine (block_value (m ((c : Thread nD τ).loc main_arg0)) (m ((c : Thread nD τ).loc main_arg1)) (m ((c : Thread nD τ).loc main_arg2))
    (iblk m c 0 t) (iblk m c 1 t) (iblk m c 2 t) (fun r => ⟨win0_3.index t (0 : Fin 2) * 256 + r.val, hrow r⟩) ?_ ?_ ?_ r o).trans ?_
  · intro r k
    show V m c main_arg0 (((cfg0.win 0).blk t).view.emb (ix2 r k)) = _
    rw [V_main_arg0]
    refine congrArg _ (funext fun a => Fin.ext ?_)
    match a with
    | ⟨0, _⟩ => show win0_0.index t (0 : Fin 2) * 256 + 1 * r.val = win0_3.index t (0 : Fin 2) * 256 + r.val; omega
    | ⟨1, _⟩ => show win0_0.index t (1 : Fin 2) * 256 + 1 * k.val = k.val; omega
  · intro k d o
    show V m c main_v1 (((cfg0.win 1).blk t).view.emb (ix2 k (col d o))) = _
    rw [V_means, ← table_apply (m ((c : Thread nD τ).loc main_arg1)) k d o]
    refine congrArg _ (funext fun a => Fin.ext ?_)
    match a with
    | ⟨0, _⟩ => show win0_1.index t (0 : Fin 2) * 256 + 1 * k.val = k.val; omega
    | ⟨1, _⟩ => show win0_1.index t (1 : Fin 2) * 512 + 1 * (col d o).val = (col d o).val; omega
  · intro k d o
    show V m c main_v3 (((cfg0.win 2).blk t).view.emb (ix2 k (col d o))) = _
    rw [V_rhos, ← table_apply (m ((c : Thread nD τ).loc main_arg2)) k d o]
    refine congrArg _ (funext fun a => Fin.ext ?_)
    match a with
    | ⟨0, _⟩ => show win0_2.index t (0 : Fin 2) * 256 + 1 * k.val = k.val; omega
    | ⟨1, _⟩ => show win0_2.index t (1 : Fin 2) * 512 + 1 * (col d o).val = (col d o).val; omega
  · refine congrArg _ (funext fun a => Fin.ext ?_)
    match a with
    | ⟨0, _⟩ => show win0_3.index t (0 : Fin 2) * 256 + r.val = win0_3.index t (0 : Fin 2) * 256 + 1 * r.val; omega
    | ⟨1, _⟩ => show o.val = win0_3.index t (1 : Fin 2) * 256 + 1 * o.val; omega

/-! ## The blocks cover the output -/

/-- An index of the output is in point t's block iff each coordinate is in the block's range on its axis. -/
theorem mem_blk (t : Fin cfg0.N) (i : S1024x256.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v4).slice (win0_3.rect t)).set ↔ _
  rw [View.set_slice_whole, Rect.mem_set_unit]
  exact Iff.rfl

/-- Every index of the output lies in the block of the point whose row block holds its row. -/
theorem cover (i : S1024x256.Idx) :
    ∃ t : Fin cfg0.N, (cfg0.win 3).flush t = true ∧ i ∈ ((cfg0.win 3).blk t).view.set := by
  have hi0 : (i 0).val < 1024 := (i 0).isLt
  have hi1 : (i 1).val < 256 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 256 ≤ (i 1).val ∧ (i 1).val < win0_3.index t (1 : Fin 2) * 256 + 256; omega

/-- THE OUTPUT ARRAY after the run: the estimator, expanded form, of the three arguments. -/
theorem final (c : Dev nD) :
    (dats m 0 c).arrAt 3 cfg0.N
      = G (estK (m ((c : Thread nD τ).loc main_arg0)) (m ((c : Thread nD τ).loc main_arg1)) (m ((c : Thread nD τ).loc main_arg2))) :=
  (dats m 0 c).arrAt_eq_of_cover 3 _ (fun t _ => flushed_eq m c t) cover

/-! ## The run, read -/

/-- The kernel's run: the output at the estimator of the arguments, the arguments unchanged. -/
theorem run : θ_run defs (onTc (τ := τ) (main (F := Ideal))) ⟨m, fun _ => 0, ρ⟩ fun r => ∀ c : Dev nD,
      r.2.mem ((c : Thread nD τ).loc main_v4)
        = G (estK (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Density.KernelValue

end
-- ==== Proof.RefValue.lean ====
/-
  The reference program's result is the density estimator in its plain form.

  Read one operation at a time at an index: the weight array is wt of the parameters; the four-axis array of weighted
  squared differences at (b, o, d, f) is (x(b,f) - m(o,d,f))² · wt; its sum over f (from the initial value 0) is the
  exponent estR; the probabilities are exp of its negation; their sum over the two distributions (from 0) is p0 + p1
  and their maximum (from minus infinity) is max p0 p1; the result is the ratio s / (s + 2 - 2 max).
-/
import proofs.«149137_j850403524972_2_alg».proof.Proof.Gen.ReferenceIdeal.Read
import Idealize.ShloMosaic.PureOps.Reduce
import Idealize.ShloMosaic.PureOps.Ideal.Laws
import Idealize.ShloMosaic.Lib.ValueIdx
import proofs.«149137_j850403524972_2_alg».proof.Proof.Spec

noncomputable section

open scoped BigOperators

namespace Cert.Density.Ref

open Cert.ReferenceIdeal Cert.ReferenceIdeal.Gen Cert.ReferenceIdeal.Read Idealize.ShloMosaic Idealize.ShloMosaic.ValueIdx
  Cert.Density

variable (X : (⟨S1024x256, .f32⟩ : BufTy).Contents (Elt Ideal)) (M R : (⟨S256x2x256, .f32⟩ : BufTy).Contents (Elt Ideal))

/-- The weights at (o, d, f). -/
theorem weight_apply (o : Fin 256) (d : Fin 2) (f : Fin 256) :
    val_main_v6 (F := Ideal) R (ix3 o d f) = wt (R (ix3 o d f)) := by
  rw [val_main_v6_apply, val_main_v5_apply, val_main_cst_0_apply, val_main_v4_apply, val_main_v3_apply, val_main_v2_apply,
    val_main_cst_apply, val_main_v1_apply, val_main_v0_apply]
  rfl

/-- The weighted squared difference at (b, o, d, f). -/
theorem term_apply (b : Fin 1024) (o : Fin 256) (d : Fin 2) (f : Fin 256) :
    val_main_v15 (F := Ideal) X M R (ix4 b o d f)
      = ((X (ix2 b f) - M (ix3 o d f)) * (X (ix2 b f) - M (ix3 o d f))) * wt (R (ix3 o d f)) := by
  have ex : idx_main_v7 (idx_main_v9 (ix4 b o d f)) = ix2 b f :=
    funext fun a => Fin.ext (by match a with | ⟨0, _⟩ => rfl | ⟨1, _⟩ => rfl)
  have em : idx_main_v8 (idx_main_v10 (ix4 b o d f)) = ix3 o d f :=
    funext fun a => Fin.ext (by match a with | ⟨0, _⟩ => rfl | ⟨1, _⟩ => rfl | ⟨2, _⟩ => rfl)
  have ew : idx_main_v13 (idx_main_v14 (ix4 b o d f)) = ix3 o d f :=
    funext fun a => Fin.ext (by match a with | ⟨0, _⟩ => rfl | ⟨1, _⟩ => rfl | ⟨2, _⟩ => rfl)
  rw [val_main_v15_apply, val_main_v12_apply, val_main_v11_apply, val_main_v9_apply, val_main_v7_apply, val_main_v10_apply,
    val_main_v8_apply, val_main_v14_apply, val_main_v13_apply, ex, em, ew, weight_apply]
  rfl

/-- The exponent at (b, o, d): the plain weighted squared distance. -/
theorem est_apply (b : Fin 1024) (o : Fin 256) (d : Fin 2) :
    val_main_v16 (F := Ideal) X M R (ix3 b o d) = estR X M R b o d := by
  rw [val_main_v16_apply]
  show Ideal.ofBits .f32 0x00000000#32 + _ = _
  rw [Ideal.ofBits_zero_f32, zero_add]
  unfold estR
  refine Finset.sum_congr rfl fun f _ => ?_
  have e : idx_main_v16 (ix3 b o d) f = ix4 b o d f :=
    funext fun a => Fin.ext (by match a with | ⟨0, _⟩ => rfl | ⟨1, _⟩ => rfl | ⟨2, _⟩ => rfl | ⟨3, _⟩ => rfl)
  rw [e]
  exact term_apply X M R b o d f

/-- The probability at (b, o, d). -/
theorem prob_apply (b : Fin 1024) (o : Fin 256) (d : Fin 2) :
    val_main_v18 (F := Ideal) X M R (ix3 b o d) = Ideal.exp (-(estR X M R b o d)) := by
  rw [val_main_v18_apply, val_main_v17_apply, est_apply]
  rfl

/-- The sum of the two distributions' probabilities at (b, o). -/
theorem sum_apply (b : Fin 1024) (o : Fin 256) :
    val_main_v19 (F := Ideal) X M R (ix2 b o)
      = Ideal.exp (-(estR X M R b o 0)) + Ideal.exp (-(estR X M R b o 1)) := by
  rw [val_main_v19_apply, Fin.sum_univ_two]
  show Ideal.ofBits .f32 0x00000000#32 + _ = _
  rw [Ideal.ofBits_zero_f32, zero_add]
  have e0 : idx_main_v19 (ix2 b o) 0 = ix3 b o 0 :=
    funext fun a => Fin.ext (by match a with | ⟨0, _⟩ => rfl | ⟨1, _⟩ => rfl | ⟨2, _⟩ => rfl)
  have e1 : idx_main_v19 (ix2 b o) 1 = ix3 b o 1 :=
    funext fun a => Fin.ext (by match a with | ⟨0, _⟩ => rfl | ⟨1, _⟩ => rfl | ⟨2, _⟩ => rfl)
  rw [e0, e1, prob_apply, prob_apply]

/-- A fold over the two-element index type. -/
theorem fold_fin2 (op : EReal → EReal → EReal) [Std.Commutative op] [Std.Associative op] (z : EReal) (g : Fin 2 → EReal) :
    (Finset.univ : Finset (Fin 2)).fold op z g = op (g 0) (op (g 1) z) := by
  rw [show (Finset.univ : Finset (Fin 2)) = {0, 1} by decide, Finset.fold_insert (by decide), Finset.fold_singleton]

/-- The larger of the two distributions' probabilities at (b, o): the fold of max from minus infinity. -/
theorem max_apply (b : Fin 1024) (o : Fin 256) :
    val_main_v20 (F := Ideal) X M R (ix2 b o)
      = max (Ideal.exp (-(estR X M R b o 0))) (Ideal.exp (-(estR X M R b o 1))) := by
  have hred : S1024x256x2.Reduces [2] S1024x256 := by decide
  unfold val_main_v20
  have key := Host.reduce_eq_fold_single (α := EReal) (s := S1024x256x2) (t := S1024x256) (a := (2 : Fin 3)) (u := S_)
    (FloatOps.maximumf (F := Ideal) (φ := .f32)) (val_main_v18 (F := Ideal) X M R) (val_main_cst_3 (F := Ideal))
    reducesTo_S1024x256x2_S1024x256_d2 hred h_S_ (ix2 b o)
  refine key.trans ?_
  refine (fold_fin2 (FloatOps.maximumf (F := Ideal) (φ := .f32)) _ _).trans ?_
  have e0 : hred.lift (ix2 b o) (0 : Fin 2) = ix3 b o 0 :=
    funext fun a => Fin.ext (by match a with | ⟨0, _⟩ => rfl | ⟨1, _⟩ => rfl | ⟨2, _⟩ => rfl)
  have e1 : hred.lift (ix2 b o) (1 : Fin 2) = ix3 b o 1 :=
    funext fun a => Fin.ext (by match a with | ⟨0, _⟩ => rfl | ⟨1, _⟩ => rfl | ⟨2, _⟩ => rfl)
  show max (val_main_v18 (F := Ideal) X M R _) (max (val_main_v18 (F := Ideal) X M R _) (Ideal.ofBits .f32 0xFF800000#32)) = _
  rw [Consts.ofBits_neg_inf, max_bot_right, e0, e1, prob_apply, prob_apply]

/-- THE REFERENCE'S RESULT is the density estimator over the plain exponents. -/
theorem result_eq : val_main_v26 (F := Ideal) X M R = G (estR X M R) := by
  funext i
  obtain ⟨b, o, rfl⟩ : ∃ (b : Fin 1024) (o : Fin 256), i = ix2 b o := ⟨i 0, i 1, eq_ix2 i⟩
  rw [val_main_v26_apply, val_main_v25_apply, val_main_v22_apply, val_main_v24_apply, val_main_v21_apply,
    val_main_v23_apply, val_main_cst_4_apply, val_main_cst_5_apply, sum_apply, max_apply, G_ix2]
  rfl

end Cert.Density.Ref

end
-- ==== Proof.Finite.lean ====
/-
  The precondition read back: every entry of the three argument arrays is a real number.

  The precondition is the conjunction of three tests "all |entry| < +infinity", one per argument array, each an
  and-reduction of the elementwise comparisons. If the conjunction is 1 then each reduction is 1, so each comparison
  is 1; and an extended real whose absolute value max(x, -x) is below the top element is neither infinity, so it is
  a real number.
-/
import proofs.«149137_j850403524972_2_alg».proof.Pre_finite_inputs
import Idealize.ShloMosaic.Lib.ReduceAll
import Idealize.ShloMosaic.Lib.ValueIdx
import Idealize.ShloMosaic.PureOps.Ideal
import proofs.«149137_j850403524972_2_alg».proof.Proof.LibRealEntries

noncomputable section

namespace Cert.Density.Finite

open Idealize.ShloMosaic Cert.Pre_finite_inputs Cert.Algebra

/-- The scalar shape has one index. -/
instance : Subsingleton S_.Idx := ⟨fun a b => funext fun d => d.elim0⟩

/-- An extended real whose absolute value is below the pattern of plus infinity is a real number. -/
theorem isReal_of_lt_inf (x : EReal)
    (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- THE PRECONDITION, READ: all three argument arrays hold real numbers. -/
theorem real_of_pre [Cert.Pre_finite_inputs.Facts] (x : FVec Ideal S1024x256 .f32) (mn rh : FVec Ideal S256x2x256 .f32)
    (h : fn (F := Ideal) x mn rh = fun _ => 1#1) :
    (∀ i, IsReal (x i)) ∧ (∀ i, IsReal (mn i)) ∧ (∀ i, IsReal (rh i)) := by
  have h0 := congrFun h ValueIdx.ix0
  dsimp only [fn] at h0
  obtain ⟨h01, h2⟩ := IntOp.andi_eq_one.1 h0
  obtain ⟨hx, h1⟩ := IntOp.andi_eq_one.1 h01
  exact ⟨fun i => isReal_of_lt_inf _ (Host.reduce_andi_all _ _ _ _ _ hx i),
    fun i => isReal_of_lt_inf _ (Host.reduce_andi_all _ _ _ _ _ h1 i),
    fun i => isReal_of_lt_inf _ (Host.reduce_andi_all _ _ _ _ _ h2 i)⟩

end Cert.Density.Finite

end
-- ==== Proof.lean ====
/-
  The kernel and its reference compute one function on finite inputs.

  Both programs evaluate a density estimator: for a batch row b, an output o and each of two distributions d, the
  exponent est = Σ_f (x(b,f) - m(o,d,f))² / (2 σ(o,d,f)²) with σ = log(1 + exp ρ), the probability p_d = exp(-est), and
  the result s / (s + 2 - 2 max(p0, p1)) with s = p0 + p1. The reference sums the weighted squared differences as
  written. The kernel expands the square, Σ x²w - 2 Σ x(mw) + Σ m(mw), computing the first two sums as matrix
  products against parameter tables transposed and flattened beforehand, and works on the batch in four blocks of
  256 rows. With every input a real number the weights are positive reals and the expansion is the binomial
  identity under a finite sum, so the two results agree entry by entry; with an infinite input the expanded form
  would subtract infinities, which is why the precondition is used.

  The kernel's output array as one function of the arguments is Proof/KernelValue.lean (over the body read at an
  entry, Proof/KernelBody.lean); the reference's is Proof/RefValue.lean; the law joining them is Proof/Spec.lean; the
  precondition read as "every entry is real" is Proof/Finite.lean.
-/
import proofs.«149137_j850403524972_2_alg».proof.Defs
import proofs.«149137_j850403524972_2_alg».proof.Proof.Gen.Kernel
import proofs.«149137_j850403524972_2_alg».proof.Proof.Gen.Kernel.Skeleton
import proofs.«149137_j850403524972_2_alg».proof.Proof.Gen.Kernel.Launch
import proofs.«149137_j850403524972_2_alg».proof.Proof.Gen.Kernel.Points
import proofs.«149137_j850403524972_2_alg».proof.Proof.Gen.Kernel.Frame
import proofs.«149137_j850403524972_2_alg».proof.Proof.Gen.KernelIdeal
import proofs.«149137_j850403524972_2_alg».proof.Proof.Gen.KernelIdeal.Skeleton
import proofs.«149137_j850403524972_2_alg».proof.Proof.Gen.KernelIdeal.Launch
import proofs.«149137_j850403524972_2_alg».proof.Proof.Gen.KernelIdeal.Points
import proofs.«149137_j850403524972_2_alg».proof.Proof.Gen.KernelIdeal.Frame
import proofs.«149137_j850403524972_2_alg».proof.Proof.Gen.ReferenceIdeal
import proofs.«149137_j850403524972_2_alg».proof.Proof.Gen.Pre_finite_inputs
import proofs.«149137_j850403524972_2_alg».proof.Proof.Gen.KernelIdeal.Value
import proofs.«149137_j850403524972_2_alg».proof.Proof.Gen.ReferenceIdeal.Run
import proofs.«149137_j850403524972_2_alg».proof.Proof.Gen.ReferenceIdeal.Read
import proofs.«149137_j850403524972_2_alg».proof.Proof.KernelValue
import proofs.«149137_j850403524972_2_alg».proof.Proof.RefValue
import proofs.«149137_j850403524972_2_alg».proof.Proof.Finite
import Idealize.ShloMosaic.Adequacy
import Idealize.ShloMosaic.Init

noncomputable section

namespace Cert.Proof

open Idealize.ShloMosaic Idealize.SL.Sem Cert.Kernel

/-- The kernel as printed runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- On finite inputs the kernel's output (the estimator with the expanded exponent) and the reference's (the
    estimator with the plain exponent) are one array: the expansion is exact on real entries. -/
theorem algebraic : Cert.algebraic_KernelIdeal_ReferenceIdeal := by
  intro m ρ m' ρ' hpre hagree
  refine ⟨fun c => Cert.Density.G (Cert.Density.estK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    Cert.Density.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2, Cert.Density.Ref.result_eq]
  obtain ⟨hX, hM, hR⟩ := Cert.Density.Finite.real_of_pre _ _ _ (hpre c)
  exact (Cert.Density.G_estK_eq _ _ _ hX hM hR).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
